-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x512x512 : Shape := ⟨3, ![4, 512, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4096x4096 .f32) (main_arg1 : FVec F S4x512x512 .f32) (main_arg2 : FVec F S4x512x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  main_v13
-- ==== Kernel.lean ====
abbrev S4096x4096 : Shape := ⟨2, ![4096, 4096]⟩
abbrev S4x512x512 : Shape := ⟨3, ![4, 512, 512]⟩
abbrev S4096x16384 : Shape := ⟨2, ![4096, 16384]⟩
abbrev S256x4096 : Shape := ⟨2, ![256, 4096]⟩
abbrev S1x512x512 : Shape := ⟨3, ![1, 512, 512]⟩
abbrev S256x512 : Shape := ⟨2, ![256, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .bf16⟩
  | .hbm, ⟨6, _⟩ => ⟨S4x512x512, .f32⟩
  | .hbm, ⟨7, _⟩ => ⟨S4x512x512, .bf16⟩
  | .hbm, ⟨8, _⟩ => ⟨S4096x16384, .f32⟩
  | .local _ .vmem, ⟨0, _⟩ => ⟨S256x4096, .f32⟩
  | .local _ .vmem, ⟨1, _⟩ => ⟨S256x4096, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S256x4096, .f32⟩
  | .local _ .vmem, ⟨7, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x512x512_S4x512x512_0_2_1 : S4x512x512.Transposes [0, 2, 1] S4x512x512
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  slices_S256x4096_o0_0_S256x512 : S256x4096.Slices ![0, 0] S256x512
  slices_S256x4096_o0_512_S256x512 : S256x4096.Slices ![0, 512] S256x512
  slices_S256x4096_o0_1024_S256x512 : S256x4096.Slices ![0, 1024] S256x512
  slices_S256x4096_o0_1536_S256x512 : S256x4096.Slices ![0, 1536] S256x512
  slices_S256x4096_o0_2048_S256x512 : S256x4096.Slices ![0, 2048] S256x512
  slices_S256x4096_o0_2560_S256x512 : S256x4096.Slices ![0, 2560] S256x512
  slices_S256x4096_o0_3072_S256x512 : S256x4096.Slices ![0, 3072] S256x512
  slices_S256x4096_o0_3584_S256x512 : S256x4096.Slices ![0, 3584] S256x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S256x4096_S256x512_0_0 : ∀ a, (![0, 0] : Fin 2 → Nat) a + S256x512.size a ≤ S256x4096.size a
  h_S256x512 : 0 < S256x512.numel
  inb_S256x4096_S256x512_0_512 : ∀ a, (![0, 512] : Fin 2 → Nat) a + S256x512.size a ≤ S256x4096.size a
  inb_S256x4096_S256x512_0_1024 : ∀ a, (![0, 1024] : Fin 2 → Nat) a + S256x512.size a ≤ S256x4096.size a
  inb_S256x4096_S256x512_0_1536 : ∀ a, (![0, 1536] : Fin 2 → Nat) a + S256x512.size a ≤ S256x4096.size a
  inb_S256x4096_S256x512_0_2048 : ∀ a, (![0, 2048] : Fin 2 → Nat) a + S256x512.size a ≤ S256x4096.size a
  inb_S256x4096_S256x512_0_2560 : ∀ a, (![0, 2560] : Fin 2 → Nat) a + S256x512.size a ≤ S256x4096.size a
  inb_S256x4096_S256x512_0_3072 : ∀ a, (![0, 3072] : Fin 2 → Nat) a + S256x512.size a ≤ S256x4096.size a
  inb_S256x4096_S256x512_0_3584 : ∀ a, (![0, 3584] : Fin 2 → Nat) a + S256x512.size a ≤ S256x4096.size a
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .bf16 = 32 ∨ (Rect.block (s := S4x512x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x512x512.size a
  hwx0_2 : ∀ i : grid0.Coords, EltTy.bits .bf16 = 32 ∨ (Rect.block (s := S4x512x512) S1x512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x16384.size a
  hwx0_3 : ∀ i : grid0.Coords, EltTy.bits .f32 = 32 ∨ (Rect.block (s := S4096x16384) S256x4096.size (cc0_transform_3 i) (hinb0_3 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4x512x512 : Shape := ⟨3, ![4, 512, 512]⟩
abbrev S4096x8x512 : Shape := ⟨3, ![4096, 8, 512]⟩
abbrev S_ : Shape := ⟨0, ![]⟩
abbrev S4096x512 : Shape := ⟨2, ![4096, 512]⟩
abbrev S4x512x4096x8 : Shape := ⟨4, ![4, 512, 4096, 8]⟩
abbrev S4096x4x8x512 : Shape := ⟨4, ![4096, 4, 8, 512]⟩
abbrev S4096x4x512 : Shape := ⟨3, ![4096, 4, 512]⟩
abbrev S4096x4x1x512 : Shape := ⟨4, ![4096, 4, 1, 512]⟩
abbrev S4096x16384 : Shape := ⟨2, ![4096, 16384]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S4x512x512, .f32⟩
  | .hbm, ⟨3, _⟩ => ⟨S4096x8x512, .f32⟩
  | .hbm, ⟨4, _⟩ => ⟨S_, .f32⟩
  | .hbm, ⟨5, _⟩ => ⟨S4096x512, .f32⟩
  | .hbm, ⟨6, _⟩ => ⟨S4x512x512, .f32⟩
  | .hbm, ⟨7, _⟩ => ⟨S4x512x4096x8, .f32⟩
  | .hbm, ⟨8, _⟩ => ⟨S4096x4x8x512, .f32⟩
  | .hbm, ⟨9, _⟩ => ⟨S4096x4x512, .f32⟩
  | .hbm, ⟨10, _⟩ => ⟨S4096x4x1x512, .f32⟩
  | .hbm, ⟨11, _⟩ => ⟨S4096x4x8x512, .f32⟩
  | .hbm, ⟨12, _⟩ => ⟨S4096x4x8x512, .f32⟩
  | .hbm, ⟨13, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4096x4096_S4096x8x512 : S4096x4096.ShapeCasts S4096x8x512
  reducesTo_S4096x8x512_S4096x512_d1 : S4096x8x512.ReducesTo [1] S4096x512
  h_S_ : 0 < S_.numel
  transposes_S4x512x4096x8_S4096x4x8x512_2_0_3_1 : S4x512x4096x8.Transposes [2, 0, 3, 1] S4096x4x8x512
  bcast_S4096x4x512_S4096x4x1x512_0_1_3 : S4096x4x512.BroadcastsInDim S4096x4x1x512 (![0, 1, 3] : Fin 3 → Fin S4096x4x1x512.rank)
  bcast_S4096x4x1x512_S4096x4x8x512_0_1_2_3 : S4096x4x1x512.BroadcastsInDim S4096x4x8x512 (![0, 1, 2, 3] : Fin 4 → Fin S4096x4x8x512.rank)
  shapeCasts_S4096x4x8x512_S4096x16384 : S4096x4x8x512.ShapeCasts S4096x16384
  dot_S4x512x512_S4096x8x512_S4x512x4096x8_2_2_01_01_n_n_wf : DotDims.WF S4x512x512 S4096x8x512 S4x512x4096x8 [2] [2] [0, 1] [0, 1] [] []
  dot_S4096x512_S4x512x512_S4096x4x512_1_2_0_01_n_n_wf : DotDims.WF S4096x512 S4x512x512 S4096x4x512 [1] [2] [0] [0, 1] [] []

variable [Facts₀]

def dot_S4x512x512_S4096x8x512_S4x512x4096x8_2_2_01_01_n_n : DotDims S4x512x512 S4096x8x512 S4x512x4096x8 where
  lhsContracting := [2]
  rhsContracting := [2]
  lhsNonContracting := [0, 1]
  rhsNonContracting := [0, 1]
  lhsBatch := []
  rhsBatch := []
  wf := dot_S4x512x512_S4096x8x512_S4x512x4096x8_2_2_01_01_n_n_wf
def dot_S4096x512_S4x512x512_S4096x4x512_1_2_0_01_n_n : DotDims S4096x512 S4x512x512 S4096x4x512 where
  lhsContracting := [1]
  rhsContracting := [2]
  lhsNonContracting := [0]
  rhsNonContracting := [0, 1]
  lhsBatch := []
  rhsBatch := []
  wf := dot_S4096x512_S4x512x512_S4096x4x512_1_2_0_01_n_n_wf

class Facts : Prop extends Facts₀ where

variable [Facts]
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.Panel.lean ====
/-
  One column panel of a grid point's output block, read at an index.

  The block is [256, 4096] and is written as eight column panels of width 512. Panel number q holds, at row a and
  column b, the inner product of row a of the q-th 512-column slice of the x block with column b of the first
  weight block, plus a term shared by all eight panels. Here that is stated for an arbitrary slice offset o and
  an arbitrary shared term: the matrix product into a zero accumulator is the plain sum over the contracted
  coordinate, the slice shifts the column by o, and the [1, 512, 512] weight block viewed as [512, 512] reads
  (0, c, b) at (c, b).
-/
import proofs.«108488_j50087908606417_2_alg».proof.Proof.Gen.KernelIdeal.Frame
import proofs.«108488_j50087908606417_2_alg».proof.Proof.LibMatmul
import Idealize.ShloMosaic.Lib.Pipeline.Value
import Idealize.ShloMosaic.Lib.ValueIdx
import Idealize.ShloMosaic.PureOps.Ideal.Laws

noncomputable section

namespace Cert.KernelIdeal.Panel

open Cert.KernelIdeal Idealize.ShloMosaic Idealize.ShloMosaic.ValueIdx

/-- Column o + c of a 4096-wide row, for a panel offset o with o + 512 ≤ 4096. -/
abbrev col (o : ℕ) (ho : o + 512 ≤ 4096) (c : Fin 512) : Fin 4096 := ⟨o + c.val, by have := c.isLt; omega⟩

/-- The [1, 512, 512] block viewed as a [512, 512] matrix reads (0, c, b) at (c, b). -/
theorem weight_apply (hc : S1x512x512.ShapeCasts S512x512) (w : Vec Ideal S1x512x512 .bf16) (c b : Fin 512) :
    shapeCast S512x512 w hc (ix2 c b) = w (ix3 0 c b) := by
  refine (shapeCast_dropUnit_apply ![512, 512] w hc (ix2 c b)).trans (congrArg w ?_)
  funext ax
  match ax with
  | ⟨0, _⟩ => rfl
  | ⟨1, _⟩ => rfl
  | ⟨2, _⟩ => rfl

/-- The 512-column slice at offset o of a [256, 4096] block reads column o + c at (a, c). -/
theorem slice_apply {φ : FTy} (o : ℕ) (ho : o + 512 ≤ 4096) (hs : S256x4096.Slices ![0, o] S256x512)
    (v : FVec Ideal S256x4096 φ) (a : Fin 256) (c : Fin 512) :
    extractStridedSlice S256x512 ![0, o] v hs (ix2 a c) = v (ix2 a (col o ho c)) :=
  extractStridedSlice_apply ![0, o] v hs (ix2 a c) (ix2 a (col o ho c)) fun ax =>
    match ax with
    | ⟨0, _⟩ => by show a.val = 0 + a.val; omega
    | ⟨1, _⟩ => rfl

/-- A panel at (a, b): Σ_c v(a, o + c) · w(0, c, b), plus the shared term at (a, b). -/
theorem panel_apply (o : ℕ) (ho : o + 512 ≤ 4096) (hs : S256x4096.Slices ![0, o] S256x512)
    (hc : S1x512x512.ShapeCasts S512x512)
    (v : FVec Ideal S256x4096 .bf16) (w : Vec Ideal S1x512x512 .bf16) (z : FVec Ideal S256x512 .f32)
    (a : Fin 256) (b : Fin 512) :
    addf (matmul dot_S256x512_S512x512_S256x512_1_0_0_1_n_n none (extractStridedSlice S256x512 ![0, o] v hs)
      (shapeCast S512x512 w hc : FVec Ideal S512x512 .bf16) (constant S256x512 .f32 0x00000000#32)) z (ix2 a b)
    = (∑ c : Fin 512, v (ix2 a (col o ho c)) * w (ix3 0 c b)) + z (ix2 a b) := by
  rw [addf_apply]
  refine congrArg (· + z (ix2 a b)) ?_
  refine (Cert.MatProd.matmul_zero_apply dot_S256x512_S512x512_S256x512_1_0_0_1_n_n.wf none _ _ a b).trans ?_
  refine Finset.sum_congr rfl fun c _ => ?_
  rw [slice_apply o ho hs v a c, weight_apply hc w c b]

end Cert.KernelIdeal.Panel

end
-- ==== Proof.Spec.lean ====
/-
  The result as one function of the three argument arrays.

  X is [4096, 4096], read as eight 512-column slices per row; A and B are [4, 512, 512]. Column j of the [4096, 16384]
  result decomposes as j = g·4096 + k·512 + p with g < 4, k < 8, p < 512, and the entry at row r is

      Σ_h X(r, 512·k + h) · (A(g, p, h) − B(g, p, h))  +  Σ_h (Σ_k' X(r, 512·k' + h)) · B(g, p, h).

  The first sum is slice k of row r against row p of A_g − B_g; the second is the sum of the eight slices of row r
  against row p of B_g. Nothing here depends on either program.
-/
import Idealize.ShloMosaic.PureOps.Ideal
import Idealize.ShloMosaic.Lib.ValueIdx

noncomputable section

namespace Cert.Spec

open Idealize.ShloMosaic Idealize.ShloMosaic.ValueIdx

/-- Column 512·k + c of a 4096-wide row: column c of the k-th of eight slices. -/
abbrev sliceCol (k : Fin 8) (c : Fin 512) : Fin 4096 := ⟨512 * k.val + c.val, by have := k.isLt; have := c.isLt; omega⟩

/-- The sum over the eight slices of row r of X, at slice column h. -/
def panelSum (X : (⟨2, ![4096, 4096]⟩ : Shape).Idx → EReal) (r : Fin 4096) (h : Fin 512) : EReal :=
  ∑ k : Fin 8, X (ix2 r (sliceCol k h))

/-- The weight group g = j / 4096 of result column j. -/
abbrev grp (j : Fin 16384) : Fin 4 := ⟨j.val / 4096, by have := j.isLt; omega⟩

/-- The output feature p = j % 512 of result column j. -/
abbrev feat (j : Fin 16384) : Fin 512 := ⟨j.val % 512, Nat.mod_lt _ (by decide)⟩

/-- Column 512·k + h of X for the slice k = j / 512 % 8 that result column j reads. -/
abbrev ownCol (j : Fin 16384) (h : Fin 512) : Fin 4096 :=
  ⟨j.val % 4096 / 512 * 512 + h.val, by have := h.isLt; omega⟩

/-- The result's entry at row r and column j. -/
def outAt (X : (⟨2, ![4096, 4096]⟩ : Shape).Idx → EReal) (A B : (⟨3, ![4, 512, 512]⟩ : Shape).Idx → EReal)
    (r : Fin 4096) (j : Fin 16384) : EReal :=
  (∑ h : Fin 512, X (ix2 r (ownCol j h)) * (A (ix3 (grp j) (feat j) h) - B (ix3 (grp j) (feat j) h)))
  + ∑ h : Fin 512, panelSum X r h * B (ix3 (grp j) (feat j) h)

/-- The result array. -/
def G (X : (⟨2, ![4096, 4096]⟩ : Shape).Idx → EReal) (A B : (⟨3, ![4, 512, 512]⟩ : Shape).Idx → EReal) :
    (⟨2, ![4096, 16384]⟩ : Shape).Idx → EReal :=
  fun i => outAt X A B (i 0) (i 1)

end Cert.Spec

end
-- ==== Proof.Block.lean ====
/-
  What one grid point leaves in its [256, 4096] output block, as one function of the point's three input blocks.

  Write x for the [256, 4096] block of the first operand, d and e for the two [1, 512, 512] weight blocks. Column j
  of the output block lies in panel j / 512 at local column j % 512, and there the body leaves

      Σ_c x(a, (j / 512)·512 + c) · d(0, c, j % 512)  +  Σ_c (Σ_k x(a, 512·k + c)) · e(0, c, j % 512),

  the second summand being the same for all eight panels: the body adds the eight 512-column slices of x (as a
  left-nested sum, which is the sum over k), and multiplies the result into e. The eight stores tile the block, so the
  block's contents are this function everywhere.
-/
import proofs.«108488_j50087908606417_2_alg».proof.Proof.Panel
import proofs.«108488_j50087908606417_2_alg».proof.Proof.Spec

noncomputable section

namespace Cert.KernelIdeal.Block

open Cert.KernelIdeal Cert.KernelIdeal.Gen Cert.KernelIdeal.Panel Cert.Spec Idealize.ShloMosaic Idealize.ShloMosaic.ValueIdx

/-- The sum over the eight slices of row a of x, at slice column c. -/
def rowSum (x : Vec Ideal S256x4096 .f32) (a : Fin 256) (c : Fin 512) : EReal := ∑ k : Fin 8, x (ix2 a (sliceCol k c))

/-- The block's entry at row a and column j. -/
def blockAt (x : Vec Ideal S256x4096 .f32) (d e : Vec Ideal S1x512x512 .bf16) (a : Fin 256) (j : Fin 4096) : EReal :=
  (∑ c : Fin 512, x (ix2 a ⟨j.val / 512 * 512 + c.val, by have := j.isLt; have := c.isLt; omega⟩)
      * d (ix3 0 c ⟨j.val % 512, Nat.mod_lt _ (by decide)⟩))
  + ∑ c : Fin 512, rowSum x a c * e (ix3 0 c ⟨j.val % 512, Nat.mod_lt _ (by decide)⟩)

/-- The block as a function of its index. -/
def blockFn (x : Vec Ideal S256x4096 .f32) (d e : Vec Ideal S1x512x512 .bf16) : Vec Ideal S256x4096 .f32 :=
  fun y => blockAt x d e (y 0) (y 1)

/-- The term shared by the eight panels, at (a, b): Σ_c (Σ_k x(a, 512·k + c)) · e(0, c, b). -/
theorem shared_apply (x : Vec Ideal S256x4096 .f32) (e : Vec Ideal S1x512x512 .bf16) (a : Fin 256) (b : Fin 512) :
    k0_pay3 x e (ix2 a b) = ∑ c : Fin 512, rowSum x a c * e (ix3 0 c b) := by
  unfold k0_pay3
  refine (Cert.MatProd.matmul_zero_apply dot_S256x512_S512x512_S256x512_1_0_0_1_n_n.wf none _ _ a b).trans ?_
  refine Finset.sum_congr rfl fun c _ => ?_
  rw [weight_apply _ e c b, truncf_apply]
  refine congrArg (· * e (ix3 0 c b)) ?_
  simp only [addf_apply]
  rw [slice_apply 0 (by decide) _ x a c, slice_apply 512 (by decide) _ x a c, slice_apply 1024 (by decide) _ x a c,
    slice_apply 1536 (by decide) _ x a c, slice_apply 2048 (by decide) _ x a c, slice_apply 2560 (by decide) _ x a c,
    slice_apply 3072 (by decide) _ x a c, slice_apply 3584 (by decide) _ x a c]
  unfold rowSum
  rw [Fin.sum_univ_eight]
  rfl

theorem zeros2 : (![0, 0] : Fin 2 → ℕ) = fun _ => 0 := by
  funext a; match a with | ⟨0, _⟩ => rfl | ⟨1, _⟩ => rfl

theorem zeros3 : (![0, 0, 0] : Fin 3 → ℕ) = fun _ => 0 := by
  funext a; match a with | ⟨0, _⟩ => rfl | ⟨1, _⟩ => rfl | ⟨2, _⟩ => rfl

/-- The panel stored at column offset o, a multiple of 512, agrees with the block function under its rectangle: local
    column b of the panel is column o + b of the block, whose panel number is o / 512 and whose local column is b. -/
theorem piece_eq (o : ℕ) (ho : o + 512 ≤ 4096) (hd : o % 512 = 0) (hs : S256x4096.Slices ![0, o] S256x512)
    (hc : S1x512x512.ShapeCasts S512x512) (hb : FTy.bf16.bits < FTy.f32.bits)
    (inb : ∀ a, ![0, o] a + S256x512.size a ≤ S256x4096.size a)
    (x : Vec Ideal S256x4096 .f32) (d e : Vec Ideal S1x512x512 .bf16) (i : S256x512.Idx) :
    addf (matmul dot_S256x512_S512x512_S256x512_1_0_0_1_n_n none (extractStridedSlice S256x512 ![0, o] (truncf .bf16 x hb) hs)
      (shapeCast S512x512 d hc : FVec Ideal S512x512 .bf16) (constant S256x512 .f32 0x00000000#32)) (k0_pay3 x e) i
    = blockFn x d e ((Rect.unit (s := S256x4096) ![0, o] S256x512.size inb).emb i) := by
  obtain ⟨a, b, rfl⟩ : ∃ (a : Fin 256) (b : Fin 512), i = ix2 a b := ⟨i 0, i 1, eq_ix2 i⟩
  rw [panel_apply o ho hs hc _ d _ a b, shared_apply]
  obtain ⟨Y, hY⟩ : ∃ Y, Y = (Rect.unit (s := S256x4096) ![0, o] S256x512.size inb).emb (ix2 a b) := ⟨_, rfl⟩
  have e0 : Y 0 = a := by rw [hY]; exact Fin.ext (by show 0 + 1 * a.val = a.val; omega)
  have e1 : (Y 1).val = o + b.val := by rw [hY]; show o + 1 * b.val = o + b.val; omega
  rw [← hY]
  unfold blockFn blockAt
  have hb' : (⟨(Y 1).val % 512, Nat.mod_lt _ (by decide)⟩ : Fin 512) = b :=
    Fin.ext (by show (Y 1).val % 512 = b.val; have := b.isLt; omega)
  rw [e0, hb']
  refine congrArg (· + _) (Finset.sum_congr rfl fun c _ => ?_)
  rw [truncf_apply]
  refine congrArg (fun j => x (ix2 a j) * d (ix3 0 c b)) (Fin.ext ?_)
  show o + c.val = (Y 1).val / 512 * 512 + c.val
  have := b.isLt; omega

/-- The body's eight stores leave the block function in the output block. -/
theorem out_eq (x : Vec Ideal S256x4096 .f32) (d e : Vec Ideal S1x512x512 .bf16) : out0_3 x d e = blockFn x d e := by
  funext y
  unfold out0_3
  simp only [View.ld_unit_zero (S := S256x4096) zeros2, View.ld_unit_zero (S := S1x512x512) zeros3]
  refine View.canon_apply_of_pieces (blockFn x d e) _ ?_ y (cover0_3 _ _ _ _ _ _ _ _ y)
  intro p hp
  simp only [List.mem_cons, List.mem_nil_iff, or_false] at hp
  rcases hp with rfl | rfl | rfl | rfl | rfl | rfl | rfl | rfl
  · intro i; exact piece_eq 3584 (by decide) (by decide) slices_S256x4096_o0_3584_S256x512 shapeCasts_S1x512x512_S512x512 bitsLt_bf16_f32 inb_S256x4096_S256x512_0_3584 x d e i
  · intro i; exact piece_eq 3072 (by decide) (by decide) slices_S256x4096_o0_3072_S256x512 shapeCasts_S1x512x512_S512x512 bitsLt_bf16_f32 inb_S256x4096_S256x512_0_3072 x d e i
  · intro i; exact piece_eq 2560 (by decide) (by decide) slices_S256x4096_o0_2560_S256x512 shapeCasts_S1x512x512_S512x512 bitsLt_bf16_f32 inb_S256x4096_S256x512_0_2560 x d e i
  · intro i; exact piece_eq 2048 (by decide) (by decide) slices_S256x4096_o0_2048_S256x512 shapeCasts_S1x512x512_S512x512 bitsLt_bf16_f32 inb_S256x4096_S256x512_0_2048 x d e i
  · intro i; exact piece_eq 1536 (by decide) (by decide) slices_S256x4096_o0_1536_S256x512 shapeCasts_S1x512x512_S512x512 bitsLt_bf16_f32 inb_S256x4096_S256x512_0_1536 x d e i
  · intro i; exact piece_eq 1024 (by decide) (by decide) slices_S256x4096_o0_1024_S256x512 shapeCasts_S1x512x512_S512x512 bitsLt_bf16_f32 inb_S256x4096_S256x512_0_1024 x d e i
  · intro i; exact piece_eq 512 (by decide) (by decide) slices_S256x4096_o0_512_S256x512 shapeCasts_S1x512x512_S512x512 bitsLt_bf16_f32 inb_S256x4096_S256x512_0_512 x d e i
  · intro i; exact piece_eq 0 (by decide) (by decide) slices_S256x4096_o0_0_S256x512 shapeCasts_S1x512x512_S512x512 bitsLt_bf16_f32 inb_S256x4096_S256x512_0_0 x d e i

end Cert.KernelIdeal.Block

end
-- ==== Proof.Whole.lean ====
/-
  From blocks to the whole result array.

  The grid is 16 × 4. At point (b, g) the pipeline stages rows 256·b … 256·b + 255 of X (all 4096 columns), block g of each
  of the two [4, 512, 512] weight operands, and writes back rows 256·b … of columns 4096·g … 4096·g + 4095 of the result.
  The weight operands are computed before the grid runs: the first is A − B with its last two axes exchanged, the second
  is B with its last two axes exchanged (the change of float format is the identity on extended reals), so their entries
  at (g, c, p) are A(g, p, c) − B(g, p, c) and B(g, p, c).

  Reading the block function of one point at these blocks gives the specified array under the point's output block:
  row a of the block is row 256·b + a, column j of the block is column 4096·g + j, whose group is g, whose slice is
  j / 512 and whose feature is j % 512. The 64 output blocks cover the result, so the result is the specified array.
-/
import proofs.«108488_j50087908606417_2_alg».proof.Proof.Gen.KernelIdeal.Value
import proofs.«108488_j50087908606417_2_alg».proof.Proof.Block
import Idealize.ShloMosaic.Lib.StableHlo.Run

noncomputable section

namespace Cert.KernelIdeal.Whole

open Cert.KernelIdeal Cert.KernelIdeal.Gen Cert.KernelIdeal.Block Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays on core c, as functions of their indices. -/
abbrev argX (c : Dev nD) : FVec Ideal S4096x4096 .f32 := m ((c : Thread nD τ).loc main_arg0)
abbrev argA (c : Dev nD) : FVec Ideal S4x512x512 .f32 := m ((c : Thread nD τ).loc main_arg1)
abbrev argB (c : Dev nD) : FVec Ideal S4x512x512 .f32 := m ((c : Thread nD τ).loc main_arg2)

/-! ## The weight operands as the grid finds them -/

/-- The first weight operand: A − B with its last two axes exchanged. -/
theorem diffArr (c : Dev nD) :
    (V m c main_v2 : S4x512x512.Idx → EReal)
      = truncf .bf16 (transpose S4x512x512 [0, 2, 1]
          (subf (argA m c) (argB m c))
          transposes_S4x512x512_S4x512x512_0_2_1 : FVec Ideal S4x512x512 .f32) bitsLt_bf16_f32 := by
  dsimp only [Gen.V, Gen.hostOps0]; after_results <;> rfl

/-- The second weight operand: B with its last two axes exchanged. -/
theorem baseArr (c : Dev nD) :
    (V m c main_v4 : S4x512x512.Idx → EReal)
      = truncf .bf16 (transpose S4x512x512 [0, 2, 1] (argB m c)
          transposes_S4x512x512_S4x512x512_0_2_1 : FVec Ideal S4x512x512 .f32) bitsLt_bf16_f32 := by
  dsimp only [Gen.V, Gen.hostOps0]; after_results <;> rfl

/-- Its entry at (g, c, p) is A(g, p, c) − B(g, p, c). -/
theorem diffArr_apply (c : Dev nD) (g : Fin 4) (cc p : Fin 512) :
    (V m c main_v2 : S4x512x512.Idx → EReal) (ix3 g cc p)
      = argA m c (ix3 g p cc) - argB m c (ix3 g p cc) := by
  rw [diffArr, truncf_apply]
  refine (transpose_apply [0, 2, 1] _ transposes_S4x512x512_S4x512x512_0_2_1 (ix3 g cc p) (ix3 g p cc) (fun b => match b with
    | ⟨0, _⟩ => rfl
    | ⟨1, _⟩ => rfl
    | ⟨2, _⟩ => rfl)).trans ?_
  rfl

/-- Its entry at (g, c, p) is B(g, p, c). -/
theorem baseArr_apply (c : Dev nD) (g : Fin 4) (cc p : Fin 512) :
    (V m c main_v4 : S4x512x512.Idx → EReal) (ix3 g cc p) = argB m c (ix3 g p cc) := by
  rw [baseArr, truncf_apply]
  exact transpose_apply [0, 2, 1] _ transposes_S4x512x512_S4x512x512_0_2_1 (ix3 g cc p) (ix3 g p cc) (fun b => match b with
    | ⟨0, _⟩ => rfl
    | ⟨1, _⟩ => rfl
    | ⟨2, _⟩ => rfl)

/-! ## The index maps, decided over the 64 points -/

/-- X moves with the output's row block and stays at column block 0; both weight operands move with the output's column
    block; the output's block indices range over 16 × 4. -/
theorem idx_facts : ∀ t : Fin cfg0.N,
    win0_0.index t (0 : Fin 2) = win0_3.index t (0 : Fin 2) ∧ win0_0.index t (1 : Fin 2) = 0
    ∧ win0_1.index t (0 : Fin 3) = win0_3.index t (1 : Fin 2) ∧ win0_1.index t (1 : Fin 3) = 0 ∧ win0_1.index t (2 : Fin 3) = 0
    ∧ win0_2.index t (0 : Fin 3) = win0_3.index t (1 : Fin 2) ∧ win0_2.index t (1 : Fin 3) = 0 ∧ win0_2.index t (2 : Fin 3) = 0
    ∧ win0_3.index t (0 : Fin 2) ≤ 15 ∧ win0_3.index t (1 : Fin 2) ≤ 3 :=
  (by decide +kernel : ∀ t : Fin grid0.N, _)

/-- Every (row block, column block) of the output is some point's. -/
theorem idx_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-! ## The input blocks of a point -/

/-- X's block at a point: row a of the block is row 256·(row block) + a of X. -/
theorem xblk (c : Dev nD) (t : Fin cfg0.N) (a : Fin 256) (j : Fin 4096) (r : Fin 4096)
    (hr : r.val = win0_3.index t (0 : Fin 2) * 256 + a.val) :
    iblk m c 0 t (ix2 a j) = argX m c (ix2 r j) := by
  obtain ⟨e0, e1, -⟩ := idx_facts t
  show V m c main_arg0 (((cfg0.win 0).blk t).view.emb (ix2 a j)) = _
  rw [V_main_arg0]
  refine congrArg _ (funext fun ax => Fin.ext ?_)
  match ax with
  | ⟨0, _⟩ => show win0_0.index t (0 : Fin 2) * 256 + 1 * a.val = r.val; omega
  | ⟨1, _⟩ => show win0_0.index t (1 : Fin 2) * 4096 + 1 * j.val = j.val; omega

/-- The first weight operand's block at a point: (0, c, p) reads A(g, p, c) − B(g, p, c) for the point's column block g. -/
theorem dblk (c : Dev nD) (t : Fin cfg0.N) (cc p : Fin 512) (g : Fin 4) (hg : g.val = win0_3.index t (1 : Fin 2)) :
    iblk m c 1 t (ix3 0 cc p)
      = argA m c (ix3 g p cc) - argB m c (ix3 g p cc) := by
  obtain ⟨-, -, e2, e3, e4, -⟩ := idx_facts t
  show (V m c main_v2 : S4x512x512.Idx → EReal) (((cfg0.win 1).blk t).view.emb (ix3 0 cc p)) = _
  have e : ((cfg0.win 1).blk t).view.emb (ix3 0 cc p) = ix3 g cc p := funext fun ax => Fin.ext (by
    match ax with
    | ⟨0, _⟩ => show win0_1.index t (0 : Fin 3) * 1 + 1 * 0 = g.val; omega
    | ⟨1, _⟩ => show win0_1.index t (1 : Fin 3) * 512 + 1 * cc.val = cc.val; omega
    | ⟨2, _⟩ => show win0_1.index t (2 : Fin 3) * 512 + 1 * p.val = p.val; omega)
  rw [e, diffArr_apply]

/-- The second weight operand's block at a point: (0, c, p) reads B(g, p, c). -/
theorem eblk (c : Dev nD) (t : Fin cfg0.N) (cc p : Fin 512) (g : Fin 4) (hg : g.val = win0_3.index t (1 : Fin 2)) :
    iblk m c 2 t (ix3 0 cc p) = argB m c (ix3 g p cc) := by
  obtain ⟨-, -, -, -, -, e5, e6, e7, -⟩ := idx_facts t
  show (V m c main_v4 : S4x512x512.Idx → EReal) (((cfg0.win 2).blk t).view.emb (ix3 0 cc p)) = _
  have e : ((cfg0.win 2).blk t).view.emb (ix3 0 cc p) = ix3 g cc p := funext fun ax => Fin.ext (by
    match ax with
    | ⟨0, _⟩ => show win0_2.index t (0 : Fin 3) * 1 + 1 * 0 = g.val; omega
    | ⟨1, _⟩ => show win0_2.index t (1 : Fin 3) * 512 + 1 * cc.val = cc.val; omega
    | ⟨2, _⟩ => show win0_2.index t (2 : Fin 3) * 512 + 1 * p.val = p.val; omega)
  rw [e, baseArr_apply]

/-! ## What a point writes back, the cover, and the result array -/

/-- What point t writes back is the specified array read through the point's output block. -/
theorem flushed_eq (c : Dev nD) (t : Fin cfg0.N) :
    (dats m 0 c).flushed 3 t = ((cfg0.win 3).blk t).view.read (Elt Ideal) (G (argX m c) (argA m c) (argB m c)) := by
  rw [Value.flushed3, out_eq]
  obtain ⟨-, -, -, -, -, -, -, -, b0, b1⟩ := idx_facts t
  funext y
  obtain ⟨a, j, rfl⟩ : ∃ (a : Fin 256) (j : Fin 4096), y = ix2 a j := ⟨y 0, y 1, eq_ix2 y⟩
  obtain ⟨I, hI⟩ : ∃ I : S4096x16384.Idx, I = ((cfg0.win 3).blk t).view.emb (ix2 a j) := ⟨_, rfl⟩
  have i0 : (I 0).val = win0_3.index t (0 : Fin 2) * 256 + a.val := by
    rw [hI]; show win0_3.index t (0 : Fin 2) * 256 + 1 * a.val = _; omega
  have i1 : (I 1).val = win0_3.index t (1 : Fin 2) * 4096 + j.val := by
    rw [hI]; show win0_3.index t (1 : Fin 2) * 4096 + 1 * j.val = _; omega
  have hj : j.val < 4096 := j.isLt
  show blockAt (iblk m c 0 t) (iblk m c 1 t) (iblk m c 2 t) a j
    = outAt (argX m c) (argA m c) (argB m c) ((((cfg0.win 3).blk t).view.emb (ix2 a j)) 0) ((((cfg0.win 3).blk t).view.emb (ix2 a j)) 1)
  rw [← hI]
  have hg : (grp (I 1)).val = win0_3.index t (1 : Fin 2) := by show (I 1).val / 4096 = _; omega
  have hf : (⟨j.val % 512, Nat.mod_lt _ (by decide)⟩ : Fin 512) = feat (I 1) :=
    Fin.ext (by show j.val % 512 = (I 1).val % 512; omega)
  unfold blockAt outAt
  rw [hf]
  refine congrArg₂ (· + ·) (Finset.sum_congr rfl fun h _ => ?_) (Finset.sum_congr rfl fun h _ => ?_)
  · rw [xblk m c t a _ (I 0) i0, dblk m c t h (feat (I 1)) (grp (I 1)) hg]
    refine congrArg (fun q => argX m c (ix2 (I 0) q) * _) (Fin.ext ?_)
    have hh : h.val < 512 := h.isLt
    show j.val / 512 * 512 + h.val = (I 1).val % 4096 / 512 * 512 + h.val
    omega
  · rw [eblk m c t h (feat (I 1)) (grp (I 1)) hg]
    refine congrArg (· * _) ?_
    unfold rowSum panelSum
    exact Finset.sum_congr rfl fun k _ => xblk m c t a _ (I 0) i0

/-- An index of the result is in point t's output block iff each coordinate is in the block's range on its axis. -/
theorem mem_blk (t : Fin cfg0.N) (i : S4096x16384.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v5).slice (win0_3.rect t)).set ↔ _
  rw [View.set_slice_whole, Rect.mem_set_unit]
  exact Iff.rfl

/-- Every index of the result lies in the output block of the point with row block (i 0) / 256 and column block (i 1) / 4096. -/
theorem cover (i : S4096x16384.Idx) : ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := idx_onto ⟨(i 0).val / 256, by omega⟩ ⟨(i 1).val / 4096, by omega⟩
  have q0 : win0_3.index t (0 : Fin 2) = (i 0).val / 256 := congrFun ht 0
  have q1 : win0_3.index t (1 : Fin 2) = (i 1).val / 4096 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The result array after the run is the specified array of the arguments. -/
theorem final (c : Dev nD) : (dats m 0 c).arrAt 3 cfg0.N = G (argX m c) (argA m c) (argB m c) :=
  (dats m 0 c).arrAt_eq_of_cover 3 (G (argX m c) (argA m c) (argB m c)) (fun t _ => flushed_eq m c t) cover

/-- Every weakly fair execution ends with the result at the specified array and the arguments unchanged. -/
theorem run : θ_run defs (onTc (τ := τ) (main (F := Ideal))) ⟨m, fun _ => 0, ρ⟩ fun r => ∀ c : Dev nD,
      r.2.mem ((c : Thread nD τ).loc main_v5) = G (argX m c) (argA m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefSpec.lean ====
/-
  The reference computes the specified function.

  Its last stage, read back one operation at a time: the [4096, 16384] result is a reshape of a [4096, 4, 8, 512] sum of
  two terms. The first is a transpose of the product of A − B (contracted on its last axis) with X viewed as
  [4096, 8, 512]; at (r, g, k, p) it is Σ_h (A − B)(g, p, h) · X(r, 512·k + h). The second is the product of the slice
  sums 0 + Σ_k' X(r, 512·k' + h) with B, broadcast along k; at (r, g, k, p) it is Σ_h (0 + Σ_k' X(r, 512·k' + h)) · B(g, p, h).
  Against the specification this is the factors of the first product exchanged and the zero dropped; the index
  arithmetic of the reshapes is the decomposition j = g·4096 + k·512 + p.
-/
import proofs.«108488_j50087908606417_2_alg».proof.Proof.Gen.ReferenceIdeal.Read
import proofs.«108488_j50087908606417_2_alg».proof.Proof.Spec

noncomputable section

namespace Cert.ReferenceIdeal.RefValue

open Cert.ReferenceIdeal Cert.ReferenceIdeal.Read Cert.Spec Idealize.ShloMosaic Idealize.ShloMosaic.ValueIdx

/-- The left operand's index of the first product at result index i: (g, p, h). -/
theorem diffIdx (i : S4096x16384.Idx) (h : Fin 512) :
    lidx_main_v3 (idx_main_v4 (idx_main_v9 i)) h = ix3 (grp (i 1)) (feat (i 1)) h := by
  funext a; apply Fin.ext
  have h0 : (i 0).val < 4096 := (i 0).isLt
  have h1 : (i 1).val < 16384 := (i 1).isLt
  match a with
  | ⟨0, _⟩ => show ((i 0).val * 16384 + (i 1).val) / 4096 % 4 = (i 1).val / 4096; omega
  | ⟨1, _⟩ => show ((i 0).val * 16384 + (i 1).val) % 512 = (i 1).val % 512; omega
  | ⟨2, _⟩ => rfl

/-- The right operand's index of the first product, through the reshape of X: (r, 512·k + h). -/
theorem ownIdx (i : S4096x16384.Idx) (h : Fin 512) :
    idx_main_v0 (ridx_main_v3 (idx_main_v4 (idx_main_v9 i)) h) = ix2 (i 0) (ownCol (i 1) h) := by
  funext a; apply Fin.ext
  have h0 : (i 0).val < 4096 := (i 0).isLt
  have h1 : (i 1).val < 16384 := (i 1).isLt
  have hh : h.val < 512 := h.isLt
  match a with
  | ⟨0, _⟩ =>
    show ((((i 0).val * 16384 + (i 1).val) / 16384 * 8 + ((i 0).val * 16384 + (i 1).val) / 512 % 8) * 512 + h.val) / 4096 = (i 0).val
    omega
  | ⟨1, _⟩ =>
    show ((((i 0).val * 16384 + (i 1).val) / 16384 * 8 + ((i 0).val * 16384 + (i 1).val) / 512 % 8) * 512 + h.val) % 4096
      = (i 1).val % 4096 / 512 * 512 + h.val
    omega

/-- The index of X that the slice sum reads for slice k', through the reshape of X: (r, 512·k' + h). -/
theorem sumIdx (i : S4096x16384.Idx) (h : Fin 512) (k : Fin 8) :
    idx_main_v0 (idx_main_v1 (lidx_main_v5 (idx_main_v6 (idx_main_v7 (idx_main_v9 i))) h) k) = ix2 (i 0) (sliceCol k h) := by
  funext a; apply Fin.ext
  have h0 : (i 0).val < 4096 := (i 0).isLt
  have h1 : (i 1).val < 16384 := (i 1).isLt
  have hh : h.val < 512 := h.isLt
  have hk : k.val < 8 := k.isLt
  match a with
  | ⟨0, _⟩ =>
    show ((((i 0).val * 16384 + (i 1).val) / 16384 * 8 + k.val) * 512 + h.val) / 4096 = (i 0).val
    omega
  | ⟨1, _⟩ =>
    show ((((i 0).val * 16384 + (i 1).val) / 16384 * 8 + k.val) * 512 + h.val) % 4096 = 512 * k.val + h.val
    omega

/-- The right operand's index of the second product: (g, p, h). -/
theorem baseIdx (i : S4096x16384.Idx) (h : Fin 512) :
    ridx_main_v5 (idx_main_v6 (idx_main_v7 (idx_main_v9 i))) h = ix3 (grp (i 1)) (feat (i 1)) h := by
  funext a; apply Fin.ext
  have h0 : (i 0).val < 4096 := (i 0).isLt
  have h1 : (i 1).val < 16384 := (i 1).isLt
  match a with
  | ⟨0, _⟩ => show ((i 0).val * 16384 + (i 1).val) / 4096 % 4 = (i 1).val / 4096; omega
  | ⟨1, _⟩ => show ((i 0).val * 16384 + (i 1).val) % 512 = (i 1).val % 512; omega
  | ⟨2, _⟩ => rfl

/-- The reference's result stage is the specified array. -/
theorem ref_eq (X : (⟨S4096x4096, .f32⟩ : BufTy).Contents (Elt Ideal)) (A B : (⟨S4x512x512, .f32⟩ : BufTy).Contents (Elt Ideal)) :
    val_main_v9 (F := Ideal) X A B = G X A B := by
  funext i
  rw [val_main_v9_apply, val_main_v8_apply, val_main_v4_apply, val_main_v3_apply, val_main_v7_apply, val_main_v6_apply,
    val_main_v5_apply]
  simp only [val_main_v2_apply, val_main_v0_apply, val_main_v1_apply, val_main_cst_apply, diffIdx, ownIdx, sumIdx, baseIdx,
    Ideal.addf_def, Ideal.subf_def, Ideal.ofBits_def, Ideal.ofBits_zero_f32, zero_add]
  unfold G outAt panelSum
  refine congrArg (· + _) (Finset.sum_congr rfl fun h _ => ?_)
  exact mul_comm _ _

end Cert.ReferenceIdeal.RefValue

end
-- ==== Proof.lean ====
/-
  The kernel and its reference compute the same [4096, 16384] array of extended reals.

  With X of shape [4096, 4096] read as eight 512-column slices per row and A, B of shape [4, 512, 512], both programs
  leave, at row r and column j = g·4096 + k·512 + p,

      Σ_h X(r, 512·k + h) · (A(g, p, h) − B(g, p, h))  +  Σ_h (Σ_k' X(r, 512·k' + h)) · B(g, p, h).

  The kernel forms A − B and B with their last two axes exchanged before a 16 × 4 grid runs; each grid point multiplies
  a 256-row block of X, slice by slice, into one block of the first, adds the product of the eight-slice sum with one
  block of the second, and writes a [256, 4096] block of the result; the 64 blocks tile the result. The reference does
  the same with two whole-array contractions, a broadcast and a reshape. The two differ in the order of the factors of
  one product, in the grouping of the eight-term sum, and in a leading zero of that sum: laws of addition and
  multiplication that hold for all extended reals, so the finiteness of the inputs is not used.

  The three frames are the generated ones (the reference's is its generated run with the result dropped); the kernel
  and its idealization differ by no rewrite.
-/
import proofs.«108488_j50087908606417_2_alg».proof.Defs
import proofs.«108488_j50087908606417_2_alg».proof.Proof.Gen.Kernel
import proofs.«108488_j50087908606417_2_alg».proof.Proof.Gen.Kernel.Skeleton
import proofs.«108488_j50087908606417_2_alg».proof.Proof.Gen.Kernel.Launch
import proofs.«108488_j50087908606417_2_alg».proof.Proof.Gen.Kernel.Points
import proofs.«108488_j50087908606417_2_alg».proof.Proof.Gen.Kernel.Frame
import proofs.«108488_j50087908606417_2_alg».proof.Proof.Gen.KernelIdeal
import proofs.«108488_j50087908606417_2_alg».proof.Proof.Gen.KernelIdeal.Skeleton
import proofs.«108488_j50087908606417_2_alg».proof.Proof.Gen.KernelIdeal.Launch
import proofs.«108488_j50087908606417_2_alg».proof.Proof.Gen.KernelIdeal.Points
import proofs.«108488_j50087908606417_2_alg».proof.Proof.Gen.KernelIdeal.Frame
import proofs.«108488_j50087908606417_2_alg».proof.Proof.Gen.ReferenceIdeal
import proofs.«108488_j50087908606417_2_alg».proof.Proof.Gen.KernelIdeal.Value
import proofs.«108488_j50087908606417_2_alg».proof.Proof.Gen.ReferenceIdeal.Run
import proofs.«108488_j50087908606417_2_alg».proof.Proof.Gen.ReferenceIdeal.Read
import proofs.«108488_j50087908606417_2_alg».proof.Proof.Gen.Pre_finite_inputs
import proofs.«108488_j50087908606417_2_alg».proof.Proof.Whole
import proofs.«108488_j50087908606417_2_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's run ends with the result at the specified array of its
    arguments, and the reference's run ends with the result at its last stage, which is the specified array of the
    same arguments. -/
theorem algebraic : Cert.algebraic_KernelIdeal_ReferenceIdeal := by
  intro m ρ m' ρ' _ hagree
  refine ⟨fun c => Cert.Spec.G (Cert.KernelIdeal.Whole.argX m c) (Cert.KernelIdeal.Whole.argA m c) (Cert.KernelIdeal.Whole.argB m c),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
